-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x128 .f32) (main_arg1 : FVec F S128x128 .f32) (main_arg2 : IVec S1600000 32) (main_arg3 : IVec S1600000 32) (main_arg4 : FVec F S1600000 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S1600000 .f32 := Host.absf main_arg4
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  main_v13
-- ==== Kernel.lean ====
abbrev S100000x128 : Shape := ⟨2, ![100000, 128]⟩
abbrev S128x128 : Shape := ⟨2, ![128, 128]⟩
abbrev S1600000 : Shape := ⟨1, ![1600000]⟩
abbrev S2000x128 : Shape := ⟨2, ![2000, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 22
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S100000x128, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S2000x128_S128x128_S2000x128_1_1_0_0_n_n_wf : DotDims.WF S2000x128 S128x128 S2000x128 [1] [1] [0] [0] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)

variable [Facts₀]

def dot_S2000x128_S128x128_S2000x128_1_1_0_0_n_n : DotDims S2000x128 S128x128 S2000x128 where
  lhsContracting := [1]
  rhsContracting := [1]
  lhsNonContracting := [0]
  rhsNonContracting := [0]
  lhsBatch := []
  rhsBatch := []
  wf := dot_S2000x128_S128x128_S2000x128_1_1_0_0_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S1600000 : Shape := ⟨1, ![1600000]⟩
abbrev S1600000x1 : Shape := ⟨2, ![1600000, 1]⟩
abbrev S_ : Shape := ⟨0, ![]⟩
abbrev S1600000x128 : Shape := ⟨2, ![1600000, 128]⟩

abbrev nBuf : Space → Nat
  | .hbm => 22
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S100000x128, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x128_S128x128_S100000x128_1_1_0_0_n_n_wf : DotDims.WF S100000x128 S128x128 S100000x128 [1] [1] [0] [0] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_1_0_0_n_n : DotDims S100000x128 S128x128 S100000x128 where
  lhsContracting := [1]
  rhsContracting := [1]
  lhsNonContracting := [0]
  rhsNonContracting := [0]
  lhsBatch := []
  rhsBatch := []
  wf := dot_S100000x128_S128x128_S100000x128_1_1_0_0_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.BlockProduct.lean ====
/-
  One grid point's arithmetic, read entry by entry at the extended reals.

  A block of 2000 node rows `x` (2000 × 128) is multiplied against the whole weight matrix `W` (128 × 128,
  stored output-feature major) with the contraction over the SECOND axis of both: entry `(p, o)` of the
  product is `∑ k, x[p, k] · W[o, k]`, i.e. a block of `x · Wᵀ`. The narrowing of both operands to
  bfloat16 before the product is the identity on extended reals, and the accumulator is the zero splat,
  so nothing but the plain sum over the 128 input features remains.
-/
import proofs.«152322_j2963527434325_1_alg».proof.Proof.Gen.KernelIdeal.Skeleton
import Idealize.ShloMosaic.Lib.ValueIdx
import Idealize.ShloMosaic.PureOps.Ideal.Laws

noncomputable section

namespace Cert.KernelIdeal.Bridge

open Cert.KernelIdeal Cert.KernelIdeal.Gen Idealize.ShloMosaic Idealize.ShloMosaic.TcCoe Idealize.SL.Sem

/-- Entry `(p, k)` of a block of rows, for the output entry `y = (p, o)` and input feature `k`. -/
abbrev rowAt (y : S2000x128.Idx) (k : Fin 128) : S2000x128.Idx := fun a => match a with
  | ⟨0, _⟩ => ⟨(y 0).val, (y 0).isLt⟩
  | ⟨1, _⟩ => ⟨k.val, k.isLt⟩

/-- Entry `(o, k)` of the weight matrix, for the output entry `y = (p, o)` and input feature `k`. -/
abbrev weightAt (y : S2000x128.Idx) (k : Fin 128) : S128x128.Idx := fun a => match a with
  | ⟨0, _⟩ => ⟨(y 1).val, (y 1).isLt⟩
  | ⟨1, _⟩ => ⟨k.val, k.isLt⟩

/-- The left operand's row coordinate is the output's row. -/
theorem lhs_row (i : S2000x128.Idx) (q : dot_S2000x128_S128x128_S2000x128_1_1_0_0_n_n.contr.Idx) :
    (dot_S2000x128_S128x128_S2000x128_1_1_0_0_n_n.lhsIdx i q 0).val = (i 0).val := by
  unfold DotDims.lhsIdx
  rw [dif_neg (show ¬(0 : Fin S2000x128.rank) ∈ dot_S2000x128_S128x128_S2000x128_1_1_0_0_n_n.lhsBatch by decide), dif_pos (show (0 : Fin S2000x128.rank) ∈ dot_S2000x128_S128x128_S2000x128_1_1_0_0_n_n.lhsNonContracting by decide)]
  rfl
/-- The left operand's column coordinate is the contracted feature. -/
theorem lhs_col (i : S2000x128.Idx) (q : dot_S2000x128_S128x128_S2000x128_1_1_0_0_n_n.contr.Idx) :
    (dot_S2000x128_S128x128_S2000x128_1_1_0_0_n_n.lhsIdx i q 1).val = (q ⟨0, by decide⟩).val :=
  dot_S2000x128_S128x128_S2000x128_1_1_0_0_n_n.lhsIdx_val_of_single rfl i q
/-- The right operand's row coordinate is the output's column (the weight is stored output-feature major). -/
theorem rhs_row (i : S2000x128.Idx) (q : dot_S2000x128_S128x128_S2000x128_1_1_0_0_n_n.contr.Idx) :
    (dot_S2000x128_S128x128_S2000x128_1_1_0_0_n_n.rhsIdx i q 0).val = (i 1).val := by
  unfold DotDims.rhsIdx
  rw [dif_neg (show ¬(0 : Fin S128x128.rank) ∈ dot_S2000x128_S128x128_S2000x128_1_1_0_0_n_n.rhsBatch by decide), dif_pos (show (0 : Fin S128x128.rank) ∈ dot_S2000x128_S128x128_S2000x128_1_1_0_0_n_n.rhsNonContracting by decide)]
  rfl
/-- The right operand's column coordinate is the contracted feature. -/
theorem rhs_col (i : S2000x128.Idx) (q : dot_S2000x128_S128x128_S2000x128_1_1_0_0_n_n.contr.Idx) :
    (dot_S2000x128_S128x128_S2000x128_1_1_0_0_n_n.rhsIdx i q 1).val = (q ⟨0, by decide⟩).val :=
  dot_S2000x128_S128x128_S2000x128_1_1_0_0_n_n.rhsIdx_val_of_single rfl i q

/-- What one grid point stores, at entry `y = (p, o)`: the sum over the input features `k` of `x[p, k] · W[o, k]`. -/
theorem block_product_apply (x0 : Vec Ideal S2000x128 .f32) (x1 : Vec Ideal S128x128 .f32) (y : S2000x128.Idx) :
    k0_pay1 (F := Ideal) x0 x1 y = ∑ k : Fin 128, x0 (rowAt y k) * x1 (weightAt y k) := by
  unfold k0_pay1
  refine (Ideal.matmul_constant_zero_apply dot_S2000x128_S128x128_S2000x128_1_1_0_0_n_n none
    (truncf .bf16 x0 bitsLt_bf16_f32) (truncf .bf16 x1 bitsLt_bf16_f32) y).trans ?_
  refine (Equiv.sum_comp (ValueIdx.contrEquiv1 dot_S2000x128_S128x128_S2000x128_1_1_0_0_n_n 128 rfl rfl).symm _).symm.trans ?_
  refine Finset.sum_congr rfl fun k _ => ?_
  have hk := ValueIdx.contrEquiv1_symm_val dot_S2000x128_S128x128_S2000x128_1_1_0_0_n_n 128 rfl rfl k
  have el : dot_S2000x128_S128x128_S2000x128_1_1_0_0_n_n.lhsIdx y ((ValueIdx.contrEquiv1 dot_S2000x128_S128x128_S2000x128_1_1_0_0_n_n 128 rfl rfl).symm k) = rowAt y k := funext fun a => Fin.ext (by
    match a with
    | ⟨0, _⟩ => exact lhs_row _ _
    | ⟨1, _⟩ => exact (lhs_col _ _).trans hk)
  have er : dot_S2000x128_S128x128_S2000x128_1_1_0_0_n_n.rhsIdx y ((ValueIdx.contrEquiv1 dot_S2000x128_S128x128_S2000x128_1_1_0_0_n_n 128 rfl rfl).symm k) = weightAt y k := funext fun a => Fin.ext (by
    match a with
    | ⟨0, _⟩ => exact rhs_row _ _
    | ⟨1, _⟩ => exact (rhs_col _ _).trans hk)
  rw [el, er]
  rfl

end Cert.KernelIdeal.Bridge

end
-- ==== Proof.Projection.lean ====
/-
  The array the region leaves: the dense projection `h = x · Wᵀ`, whole.

  The grid has 50 points; point `t` reads rows `2000·t … 2000·t + 1999` of `x` and the whole of `W`, and
  writes back rows `2000·t … 2000·t + 1999` of the result. Entry `(p, o)` of what it writes is
  `∑ k, x[2000·t + p, k] · W[o, k]`, which is entry `(2000·t + p, o)` of ONE function of the two argument
  arrays: `h[n, o] = ∑ k, x[n, k] · W[o, k]`, the same sum the reference's contraction of `x` and `W` over
  their second axes denotes. The 50 blocks tile the 100000 rows (row `n` lies in block `n / 2000`), so after
  the region the whole array is that function.
-/
import proofs.«152322_j2963527434325_1_alg».proof.Proof.Gen.KernelIdeal.Frame
import proofs.«152322_j2963527434325_1_alg».proof.Proof.Gen.ReferenceIdeal.Read
import proofs.«152322_j2963527434325_1_alg».proof.Proof.BlockProduct
import Idealize.ShloMosaic.Lib.Pipeline.Value

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The body's loads and its store go through the whole block at offset zero. -/
theorem zero_offsets : (![0, 0] : Fin 2 → Nat) = fun _ => 0 := funext fun a => by fin_cases a <;> rfl

/-- The projected features as one function of the two argument arrays: `h[n, o] = ∑ k, x[n, k] · W[o, k]`,
    spelt as the reference's own contraction so that the two programs meet in one term. -/
abbrev projection (x : S100000x128.Idx → Elt Ideal .f32) (w : S128x128.Idx → Elt Ideal .f32) : S100000x128.Idx → Elt Ideal .f32 :=
  Cert.ReferenceIdeal.Read.val_main_v0 (F := Ideal) x w

/-- The block indices over the grid: the rows of `x` move with the rows of the result, every other block index is
    zero, and the result's row-block index stays below 50. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 49 :=
  (by decide +kernel : ∀ t : Fin grid0.N, _)

/-- Every one of the 50 row blocks is some point's. -/
theorem block_onto : ∀ q : Fin 50, ∃ t : Fin cfg0.N, win0_2.index t = ![q.val, 0] :=
  (by decide +kernel : ∀ q : Fin 50, ∃ t : Fin grid0.N, win0_2.index t = ![q.val, 0])

/-- What point `t` writes back is block `t` of the projection of the argument arrays. -/
theorem flushed_eq (c : Dev nD) (t : Fin cfg0.N) :
    (dats m 0 c).flushed 2 t = ((cfg0.win 2).blk t).view.read (Elt Ideal) (projection (V m c main_arg0) (V m c main_arg1)) := by
  show (cfg0.win 2).cut (grid0.coords t) ((dats m 0 c).after 2 t) = _
  rw [after0_2]
  unfold out0_2
  rw [View.canon_unit_zero zero_offsets]
  simp only [View.ld_unit_zero (S := S2000x128) zero_offsets, View.ld_unit_zero (S := S128x128) zero_offsets]
  obtain ⟨e0, e1, e2, e3, e4, e5⟩ := block_indices t
  funext y
  refine (block_product_apply (iblk m c 0 t) (iblk m c 1 t) y).trans ?_
  refine Eq.trans ?_ (Cert.ReferenceIdeal.Read.val_main_v0_apply (V m c main_arg0) (V m c main_arg1) (((cfg0.win 2).blk t).view.emb y)).symm
  refine Finset.sum_congr rfl fun k _ => ?_
  have h0 : ((cfg0.win 0).blk t).view.emb (rowAt y k) = Cert.ReferenceIdeal.Read.lidx_main_v0 (((cfg0.win 2).blk t).view.emb y) k := by
    funext a; apply Fin.ext
    match a with
    | ⟨0, _⟩ => show win0_0.index t (0 : Fin 2) * 2000 + 1 * (y 0).val = win0_2.index t (0 : Fin 2) * 2000 + 1 * (y 0).val; omega
    | ⟨1, _⟩ => show win0_0.index t (1 : Fin 2) * 128 + 1 * k.val = k.val; omega
  have h1 : ((cfg0.win 1).blk t).view.emb (weightAt y k) = Cert.ReferenceIdeal.Read.ridx_main_v0 (((cfg0.win 2).blk t).view.emb y) k := by
    funext a; apply Fin.ext
    match a with
    | ⟨0, _⟩ => show win0_1.index t (0 : Fin 2) * 128 + 1 * (y 1).val = win0_2.index t (1 : Fin 2) * 128 + 1 * (y 1).val; omega
    | ⟨1, _⟩ => show win0_1.index t (1 : Fin 2) * 128 + 1 * k.val = k.val; omega
  have a0 : iblk m c 0 t (rowAt y k) = V m c main_arg0 (Cert.ReferenceIdeal.Read.lidx_main_v0 (((cfg0.win 2).blk t).view.emb y) k) := by
    show V m c main_arg0 (((cfg0.win 0).blk t).view.emb (rowAt y k)) = _
    rw [h0]
  have a1 : iblk m c 1 t (weightAt y k) = V m c main_arg1 (Cert.ReferenceIdeal.Read.ridx_main_v0 (((cfg0.win 2).blk t).view.emb y) k) := by
    show V m c main_arg1 (((cfg0.win 1).blk t).view.emb (weightAt y k)) = _
    rw [h1]
  rw [a0, a1]

/-- An entry of the result array lies in point `t`'s block iff each coordinate is in the block's range. -/
theorem mem_block (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- The blocks tile the array: row `n` lies in the block of the point with row-block index `n / 2000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := block_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After the region the result array is the projection of the argument arrays, whole. -/
theorem projection_array (c : Dev nD) :
    (dats m 0 c).arrAt 2 cfg0.N = projection (V m c main_arg0) (V m c main_arg1) :=
  (dats m 0 c).arrAt_eq_of_cover 2 _ (fun t _ => flushed_eq m c t) covered

end Cert.KernelIdeal.Bridge

end
-- ==== Proof.Aggregate.lean ====
/-
  The sparse aggregation after the projection, and the two programs' results through it.

  Both programs finish with the same sixteen host operations on the projected features `h`:
  the column indices are normalised (a negative index has the node count 100000 added), row `col[e]` of `h` is
  gathered for every edge `e`, scaled by `val[e]`, and scatter-added into row `row[e]` of a zero array:
  `out[i] = ∑_{e : row[e] = i} val[e] · h[col[e]]`. That map `h ↦ out` is written once (`aggregate`) and never
  opened: the programs differ only in how `h` is produced, and `h` is the same array on both sides
  (`projection_array`), so the results agree by congruence.
-/
import proofs.«152322_j2963527434325_1_alg».proof.Proof.Projection
import Idealize.ShloMosaic.Lib.StableHlo.Run

set_option maxRecDepth 16384

noncomputable section

namespace Cert.KernelIdeal.Bridge

open Cert.KernelIdeal Cert.KernelIdeal.Gen Idealize.ShloMosaic Idealize.ShloMosaic.TcCoe Idealize.SL.Sem Idealize.ShloMosaic.StableHlo
open Idealize.ShloMosaic.Pipeline (Dat)

/-- The aggregation `out[i] = ∑_{e : row[e] = i} val[e] · h[col[e]]` as the programs spell it, over the shape
    records and broadcast facts of whichever program states it. -/
def aggregate
    (gd : GatherDims S100000x128 S1600000x1 S1600000x128) (sd : ScatterDims S100000x128 S1600000x1 S1600000x128)
    (b_col : S1600000.BroadcastsInDim S1600000x1 (![0] : Fin 1 → Fin S1600000x1.rank))
    (b_all : S_.BroadcastsInDim S1600000 (![] : Fin 0 → Fin S1600000.rank))
    (b_lanes : S1600000x1.BroadcastsInDim S1600000x128 (![0, 1] : Fin 2 → Fin S1600000x128.rank))
    (b_zero : S_.BroadcastsInDim S100000x128 (![] : Fin 0 → Fin S100000x128.rank))
    (h : (⟨S100000x128, .f32⟩ : BufTy).Contents (Elt Ideal))
    (row col : (⟨S1600000, .i32⟩ : BufTy).Contents (Elt Ideal))
    (val : (⟨S1600000, .f32⟩ : BufTy).Contents (Elt Ideal)) : (⟨S100000x128, .f32⟩ : BufTy).Contents (Elt Ideal) :=
  Host.scatterAdd (F := Ideal) sd (broadcastInDim S100000x128 ![] b_zero (constant (F := Ideal) S_ .f32 0x00000000#32))
    (broadcastInDim S1600000x1 ![0] b_col row)
    (mulf (F := Ideal) (broadcastInDim S1600000x128 ![0, 1] b_lanes (broadcastInDim S1600000x1 ![0] b_col val))
      (Host.gather gd h (broadcastInDim S1600000x1 ![0] b_col
        (select (cmpi .slt col (broadcastInDim S1600000 ![] b_all (constantI S_ 32 0#32)))
          (addi col (broadcastInDim S1600000 ![] b_all (constantI S_ 32 100000#32))) col))))

variable (m : (ℓ : Loc nD τ sig) → Buf (Elt Ideal) ℓ)

/-- The kernel program's result: the aggregation of the projection of its argument arrays. -/
def kernelResult (c : Dev nD) : (⟨S100000x128, .f32⟩ : BufTy).Contents (Elt Ideal) :=
  aggregate gather_S100000x128_S1600000x1_S1600000x128_1_0_n_n_0_1_1128 scatter_S100000x128_S1600000x1_S1600000x128_1_0_0_1
    bcast_S1600000_S1600000x1_0 bcast_S_S1600000 bcast_S1600000x1_S1600000x128_0_1 bcast_S_S100000x128
    (projection (m ((c : Thread nD τ).loc main_arg0)) (m ((c : Thread nD τ).loc main_arg1)))
    (m ((c : Thread nD τ).loc main_arg2)) (m ((c : Thread nD τ).loc main_arg3)) (m ((c : Thread nD τ).loc main_arg4))

/-- What the host lines after the region leave in the result buffer: they read the edge arrays as launched and
    the region's output array, which is the projection. -/
theorem tail_result (c : Dev nD) :
    Pipeline.afterTail₀ cfgs (dats m) 0 (V0 m) [hostOps1] c main_v13 = kernelResult m c := by
  unfold Pipeline.afterTail₀
  show StableHlo.after hostOps1 _ (Proc.devRef .tc main_v13) = _
  after_results
  have hv0 : Pipeline.withArrays (cfgs 0).spec c (V0 m c) (fun w => (dats m 0 c).arrAt w (cfgs 0).N) (Proc.devRef .tc main_v0)
      = projection (m ((c : Thread nD τ).loc main_arg0)) (m ((c : Thread nD τ).loc main_arg1)) :=
    (Pipeline.withArrays_arr spec0 launch0.win.arr_inj c (V0 m c) _ 2).trans (projection_array m c)
  have h2 : Pipeline.withArrays (cfgs 0).spec c (V0 m c) (fun w => (dats m 0 c).arrAt w (cfgs 0).N) (Proc.devRef .tc main_arg2)
      = m ((c : Thread nD τ).loc main_arg2) :=
    Pipeline.withArrays_of_ne spec0 c (V0 m c) _ main_arg2 (by decide)
  have h3 : Pipeline.withArrays (cfgs 0).spec c (V0 m c) (fun w => (dats m 0 c).arrAt w (cfgs 0).N) (Proc.devRef .tc main_arg3)
      = m ((c : Thread nD τ).loc main_arg3) :=
    Pipeline.withArrays_of_ne spec0 c (V0 m c) _ main_arg3 (by decide)
  have h4 : Pipeline.withArrays (cfgs 0).spec c (V0 m c) (fun w => (dats m 0 c).arrAt w (cfgs 0).N) (Proc.devRef .tc main_arg4)
      = m ((c : Thread nD τ).loc main_arg4) :=
    Pipeline.withArrays_of_ne spec0 c (V0 m c) _ main_arg4 (by decide)
  rw [hv0, h2, h3, h4]
  rfl

/-- The reference's composed term is the same aggregation of the same projection: its contraction IS the
    projection, and its shape records and broadcast facts are the kernel program's, field for field. -/
theorem reference_term (x0 : (⟨S100000x128, .f32⟩ : BufTy).Contents (Elt Ideal)) (x1 : (⟨S128x128, .f32⟩ : BufTy).Contents (Elt Ideal))
    (x2 x3 : (⟨S1600000, .i32⟩ : BufTy).Contents (Elt Ideal)) (x4 : (⟨S1600000, .f32⟩ : BufTy).Contents (Elt Ideal)) :
    Cert.ReferenceIdeal.Read.val_main_v13 (F := Ideal) x0 x1 x2 x3 x4
      = aggregate gather_S100000x128_S1600000x1_S1600000x128_1_0_n_n_0_1_1128 scatter_S100000x128_S1600000x1_S1600000x128_1_0_0_1
          bcast_S1600000_S1600000x1_0 bcast_S_S1600000 bcast_S1600000x1_S1600000x128_0_1 bcast_S_S100000x128
          (projection x0 x1) x2 x3 x4 := rfl

end Cert.KernelIdeal.Bridge

end
-- ==== Proof.KernelRun.lean ====
/-
  The kernel program's run with its result named.

  Every weakly fair execution of the program terminates; afterwards the result buffer holds the aggregation of
  the projection of the argument arrays (the region's output array is the projection, the host lines after the
  region aggregate it), and the five argument arrays are as launched: the two the region stages are inputs only,
  and no host line writes the three edge arrays.
-/
import proofs.«152322_j2963527434325_1_alg».proof.Proof.Aggregate

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The run: the result is `kernelResult`, the arguments are unchanged. -/
theorem kernel_run :
    θ_run defs (onTc (τ := τ) (main (F := Ideal))) ⟨m, fun _ => 0, ρ⟩ (fun r => ∀ c : Dev nD,
      r.2.mem ((c.tc : Thread nD τ).loc main_v13) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v13 (Pipeline.mem_restRefs_of main_v13 (by decide) (by decide))).trans (tail_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Bridge

end
-- ==== Proof.lean ====
/-
  Message passing on a graph: `out[i] = ∑_{e : row[e] = i} val[e] · (x · Wᵀ)[col[e]]`, kernel against reference,
  over the extended reals.

  The two programs differ in one step only. The kernel computes the dense projection `h = x · Wᵀ` in 50 row
  blocks of 2000 nodes, each a product of a block of `x` with the whole of `W` contracted over the input
  features, the operands narrowed to bfloat16 first; the reference contracts `x` and `W` over the same axes in
  one operation. On extended reals the narrowing is the identity and a block of the product is the product of
  the block, so both leave `h[n, o] = ∑ k, x[n, k] · W[o, k]`, the sum taken over the same 128 features in the
  same order: no law of arithmetic is needed, and the inputs' finiteness is never used. Both programs then gather,
  scale and scatter-add `h` with literally the same host operations, so the results are one function of the
  arguments.

  The idealisation pass recorded no rewrite of the kernel (its ledger is empty), so the preservation claim has no
  conjunct. The three frames are the generated ones (the reference's is its generated run
  with the result dropped).
-/
import proofs.«152322_j2963527434325_1_alg».proof.Defs
import proofs.«152322_j2963527434325_1_alg».proof.Proof.Gen.Kernel
import proofs.«152322_j2963527434325_1_alg».proof.Proof.Gen.Kernel.Skeleton
import proofs.«152322_j2963527434325_1_alg».proof.Proof.Gen.Kernel.Launch
import proofs.«152322_j2963527434325_1_alg».proof.Proof.Gen.Kernel.Points
import proofs.«152322_j2963527434325_1_alg».proof.Proof.Gen.Kernel.Frame
import proofs.«152322_j2963527434325_1_alg».proof.Proof.Gen.KernelIdeal
import proofs.«152322_j2963527434325_1_alg».proof.Proof.Gen.KernelIdeal.Skeleton
import proofs.«152322_j2963527434325_1_alg».proof.Proof.Gen.KernelIdeal.Launch
import proofs.«152322_j2963527434325_1_alg».proof.Proof.Gen.KernelIdeal.Points
import proofs.«152322_j2963527434325_1_alg».proof.Proof.Gen.KernelIdeal.Frame
import proofs.«152322_j2963527434325_1_alg».proof.Proof.Gen.ReferenceIdeal
import proofs.«152322_j2963527434325_1_alg».proof.Proof.Gen.ReferenceIdeal.Run
import proofs.«152322_j2963527434325_1_alg».proof.Proof.Gen.ReferenceIdeal.Read
import proofs.«152322_j2963527434325_1_alg».proof.Proof.Gen.Pre_finite_inputs
import proofs.«152322_j2963527434325_1_alg».proof.Proof.KernelRun
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does its idealised program. -/
theorem frame_kernel_ideal : Cert.frame_KernelIdeal := fun m ρ _ => Cert.KernelIdeal.Gen.frame m ρ

/-- The reference runs and keeps its arguments: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ledger of rewrites is empty: the claim is the trivial proposition. -/
theorem preserves : Cert.preserves_Kernel_KernelIdeal := trivial

/-- From memories that agree on the arguments both programs end with the aggregation of the projection of those
    arguments: the kernel by its run read through the region and the host lines after it, the reference by its
    run, whose composed term is that same aggregation of that same projection. -/
theorem algebraic : Cert.algebraic_KernelIdeal_ReferenceIdeal := by
  intro m ρ m' ρ' _ hagree
  refine ⟨fun c => Cert.KernelIdeal.Bridge.kernelResult m c, Cert.KernelIdeal.Bridge.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v13_eq _ _ _ _ _).trans (Cert.KernelIdeal.Bridge.reference_term _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
